-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn {F : FTy → Type} [FloatOps F] (main_arg0 : FVec F S50000x128 .f32) (main_arg1 : IVec S2x800000 32) (main_arg2 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : IVec S1x800000 32 := (extractStridedSlice S1x800000 ![1, 0] · slices_S2x800000_S1x800000_1_0) main_arg1
  let main_v10 : IVec S800000 32 := shapeCast S800000 main_v9 shapeCasts_S1x800000_S800000
  let main_c_2 : IVec S_ 32 := constantI S_ 32 0#32
  let main_v11 : IVec S800000 32 := broadcastInDim S800000 ![] bcast_S_S800000 main_c_2
  let main_v12 : IVec S800000 1 := cmpi .sge main_v10 main_v11
  let main_c_3 : IVec S_ 1 := constantI S_ 1 1#1
  let main_v13 : IVec S_ 1 := (fun x v => Host.reduce IntOp.andi x v reducesTo_S800000_S_d0 h_S_) main_v12 main_c_3
  let main_v14 : IVec S_ 1 := andi main_v8 main_v13
  main_v14
-- ==== Kernel.lean ====
abbrev S50000x128 : Shape := ⟨2, ![50000, 128]⟩
abbrev S2x800000 : Shape := ⟨2, ![2, 800000]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x128 : Shape := ⟨2, ![128, 128]⟩
abbrev S5000x128 : Shape := ⟨2, ![5000, 128]⟩
abbrev S5000x1 : Shape := ⟨2, ![5000, 1]⟩

abbrev nBuf : Space → Nat
  | .hbm => 44
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S1x800000, .i32⟩
  | .hbm, ⟨4, _⟩ => ⟨S800000, .i32⟩
  | .hbm, ⟨5, _⟩ => ⟨S1x800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S50000, .f32⟩
  | .hbm, ⟨29, _⟩ => ⟨S_, .f32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S50000, .f32⟩
  | .hbm, ⟨40, _⟩ => ⟨S50000x1, .f32⟩
  | .hbm, ⟨41, _⟩ => ⟨S128x128, .f32⟩
  | .hbm, ⟨42, _⟩ => ⟨S128x128, .f32⟩
  | .hbm, ⟨43, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  slices_S256x128_S128x128_0_0 : S256x128.Slices ![0, 0] S128x128
  slices_S256x128_S128x128_128_0 : S256x128.Slices ![128, 0] S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩

abbrev nBuf : Space → Nat
  | .hbm => 34
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S1x800000, .i32⟩
  | .hbm, ⟨4, _⟩ => ⟨S800000, .i32⟩
  | .hbm, ⟨5, _⟩ => ⟨S1x800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S800000x1, .i32⟩
  | .hbm, ⟨19, _⟩ => ⟨S50000x128, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S50000x256, .f32⟩
  | .hbm, ⟨33, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.TargetsNonneg.lean ====
/-
  What the precondition says of the target indices, and what it makes of the wrap-around.

  The precondition's last conjunct is that every entry of row 1 of the edge list (the target node of each edge) is
  non-negative as a signed word.  "Add n to the index if it is negative" then changes nothing: a word that is not
  below zero keeps its value under the selection.
-/
import proofs.«126059_j68281390072361_2_alg».proof.Pre_finite_inputs
import Idealize.ShloMosaic.Lib.ReduceAll
import Idealize.ShloMosaic.Lib.Affine

noncomputable section

namespace Cert.Targets

open Idealize.ShloMosaic

/-- Selecting "index + n" where the index is below z, and the index itself elsewhere, is the index wherever
    every index is at least z. -/
theorem select_slt_eq_self {s : Shape} (d z n : IVec s 32) (h : ∀ e, cmpi .sge d z e = 1#1) :
    select (cmpi .slt d z) (addi d n) d = d := by
  funext e
  have hge : (z e).toInt ≤ (d e).toInt := IntOp.cmpi_sge.1 (h e)
  have hlt : ¬ IntOp.cmpi .slt (d e) (z e) = 1#1 := fun hc => by have := IntOp.cmpi_slt.1 hc; omega
  show Scalar.select (IntOp.cmpi .slt (d e) (z e)) (IntOp.addi (d e) (n e)) (d e) = d e
  exact if_neg hlt

instance : Subsingleton Cert.Pre_finite_inputs.S_.Idx := ⟨fun a b => funext fun d => d.elim0⟩

open Cert.Pre_finite_inputs Cert.Pre_finite_inputs.Facts in
/-- Under the precondition every target index is at least zero. -/
theorem targets_nonneg [Cert.Pre_finite_inputs.Facts] {F : FTy → Type} [FloatOps F]
    (x : FVec F S50000x128 .f32) (ei : IVec S2x800000 32) (W : FVec F S256x128 .f32)
    (h : Cert.Pre_finite_inputs.fn (F := F) x ei W = fun _ => 1#1) (e : S800000.Idx) :
    cmpi .sge (shapeCast S800000 (extractStridedSlice S1x800000 ![1, 0] ei slices_S2x800000_S1x800000_1_0) shapeCasts_S1x800000_S800000)
      (broadcastInDim S800000 ![] bcast_S_S800000 (constantI S_ 32 0#32)) e = 1#1 := by
  have h0 := congrFun h (fun a => a.elim0)
  dsimp only [Cert.Pre_finite_inputs.fn] at h0
  exact Host.reduce_andi_all _ _ _ _ _ (IntOp.andi_eq_one.1 h0).2 e

end Cert.Targets

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibRowOps.lean ====
/-
  Rows of a matrix, at the exact extended-real reading of the float operations.

  • Layout: a length-a vector viewed as an a × 1 column reads entry i at (i, 0); an a × 1 column broadcast along its
    rows to a × b reads (i, 0) at every (i, c); a 1 × 1 × a × b block viewed as an a × b matrix, and back.
  • Reductions along a row: the sum of an a × b matrix over its second axis is, at row r, the sum over k < b of the
    entries (r, k); its maximum from a starting value is the fold of `max` over the same entries.
  • The same for the last axis of a rank-4 array reduced on the host: at (x, y, z) the fold, from the initial value,
    over k of the entries (x, y, z, k).
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

variable {α : Type}

/-! ## Layout -/

/-- A length-a vector cast to an a × 1 column reads, at (i, u), entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column broadcast to a × b reads, at (p, c), the column's entry (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A 1 × 1 × a × b block cast to an a × b matrix reads, at (i, j), the block's entry (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An a × b matrix cast to a 1 × 1 × a × b block reads, at (u, w, i, j), the matrix's entry (i, j). -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_two, Shape.rowMajor_val_four]
    show i.val * b + j.val = ((u.val * 1 + w.val) * a + i.val) * b + j.val
    rw [hu, hw]
    simp only [Nat.zero_mul, Nat.zero_add])

/-! ## Reductions along the rows of a matrix -/

/-- Row r of the matrix with coordinate k inserted on the reduced axis is the entry (r, k). -/
theorem lift_row {a b : ℕ} (h : (⟨2, ![a, b]⟩ : Shape).Reduces [1] ⟨1, ![a]⟩) (r : Fin a) (k : Fin b) :
    h.lift (ix1 r) k = ix2 r k := by
  funext c; apply Fin.ext
  match c with
  | ⟨0, _⟩ => rfl
  | ⟨1, _⟩ => rfl

/-- The sum of a matrix over its second axis, at row r: the sum over k of the entries (r, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum of a matrix over its second axis, at row r: the fold of `max`, from the starting word's value, over
    the entries (r, k). -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f : Fin b → EReal => (Finset.univ : Finset (Fin b)).fold max (Ideal.ofBits φ acc) f)
      (funext fun k => congrArg src (lift_row h r k)))

/-! ## A host reduction along the last axis of a rank-4 array -/

/-- (x, y, z) with coordinate k inserted on the last axis is (x, y, z, k). -/
theorem lift_last4 {n0 n1 n2 n3 : ℕ} (h : (⟨4, ![n0, n1, n2, n3]⟩ : Shape).Reduces [3] ⟨3, ![n0, n1, n2]⟩)
    (x : Fin n0) (y : Fin n1) (z : Fin n2) (k : Fin n3) : h.lift (ix3 x y z) k = ix4 x y z k := by
  funext c; apply Fin.ext
  match c with
  | ⟨0, _⟩ => rfl
  | ⟨1, _⟩ => rfl
  | ⟨2, _⟩ => rfl
  | ⟨3, _⟩ => rfl

/-- A host reduction by `max` along the last axis of a rank-4 array, at (x, y, z): the fold of `max`, from the initial
    value, over the entries (x, y, z, k). -/
theorem hostMax_last4_apply {n0 n1 n2 n3 : ℕ} {u : Shape} (src : (⟨4, ![n0, n1, n2, n3]⟩ : Shape).Idx → EReal) (init : u.Idx → EReal)
    (h' : (⟨4, ![n0, n1, n2, n3]⟩ : Shape).ReducesTo [3] ⟨3, ![n0, n1, n2]⟩)
    (h : (⟨4, ![n0, n1, n2, n3]⟩ : Shape).Reduces [3] ⟨3, ![n0, n1, n2]⟩) (hu : 0 < u.numel)
    (x : Fin n0) (y : Fin n1) (z : Fin n2) :
    Host.reduce (max : EReal → EReal → EReal) src init h' hu (ix3 x y z)
      = (Finset.univ : Finset (Fin n3)).fold max (init (Shape.Idx.first hu)) (fun k => src (ix4 x y z k)) :=
  (Host.reduce_eq_fold_single (max : EReal → EReal → EReal) src init h' h hu (ix3 x y z)).trans
    (congrArg (fun f : Fin n3 → EReal => (Finset.univ : Finset (Fin n3)).fold max (init (Shape.Idx.first hu)) f)
      (funext fun k => congrArg src (lift_last4 h x y z k)))

end Cert.LibRowOps

end
-- ==== Proof.SageSpec.lean ====
/-
  The value of the layer, entry by entry, and the one law that joins the two programs.

  For node features x (50000 × 128), summed neighbour features agg (50000 × 128), in-degrees cnt (50000) and a
  weight W (256 × 128), the layer's output at row r and column c is

      ∑ k < 128, x(r,k) · W(k,c)  +  ∑ k < 128, (agg(r,k) / max(cnt(r), 1)) · W(128 + k, c):

  the product of the row [x(r,·), mean(r,·)] of length 256 with column c of W, written as the sum of its two halves.
  A sum over 256 indices is the sum over the first 128 plus the sum over the last 128; addition of extended reals is
  associative and commutative, so this needs no finiteness of any term.
-/
import Idealize.ShloMosaic.PureOps.Ideal
import Idealize.ShloMosaic.Lib.ValueIdx

noncomputable section

namespace Cert.Sage

open Idealize.ShloMosaic Idealize.ShloMosaic.ValueIdx

/-- A sum over 256 indices is the sum over the first 128 plus the sum over the last 128. -/
theorem sum_two_halves (f : Fin 256 → EReal) :
    ∑ k : Fin 256, f k = (∑ k : Fin 128, f ⟨k.val, by omega⟩) + ∑ k : Fin 128, f ⟨128 + k.val, by omega⟩ :=
  Fin.sum_univ_add (a := 128) (b := 128) f

/-- The float word of the number one; both programs carry the same word, and it is never evaluated. -/
abbrev one : EReal := Ideal.ofBits .f32 0x3F800000#32

/-- The layer's output at row r, column c. -/
def entry (x agg : (⟨2, ![50000, 128]⟩ : Shape).Idx → EReal) (cnt : (⟨1, ![50000]⟩ : Shape).Idx → EReal)
    (W : (⟨2, ![256, 128]⟩ : Shape).Idx → EReal) (r : Fin 50000) (c : Fin 128) : EReal :=
  (∑ k : Fin 128, x (ix2 r k) * W (ix2 (⟨k.val, by omega⟩ : Fin 256) c))
    + ∑ k : Fin 128, Ideal.div (agg (ix2 r k)) (max (cnt (ix1 r)) one) * W (ix2 (⟨128 + k.val, by omega⟩ : Fin 256) c)

/-- The layer's output as one array. -/
def out (x agg : (⟨2, ![50000, 128]⟩ : Shape).Idx → EReal) (cnt : (⟨1, ![50000]⟩ : Shape).Idx → EReal)
    (W : (⟨2, ![256, 128]⟩ : Shape).Idx → EReal) : (⟨2, ![50000, 128]⟩ : Shape).Idx → EReal :=
  fun i => entry x agg cnt W (i 0) (i 1)

end Cert.Sage

end
-- ==== Proof.TileValue.lean ====
/-
  What the kernel body stores, entry by entry.

  At a grid point the body holds a 5000-row block of x, of the neighbour sums agg and of the in-degree column cnt, and
  the two 128 × 128 halves w1, w2 of the weight.  It stores, at row p and column q of the block,

      ∑ k < 128, x(p,k) · w1(k,q)  +  ∑ k < 128, (agg(p,k) / max(cnt(p,0), 1)) · w2(k,q):

  each tile product into a zero accumulator is the plain sum over the contracted index, the in-degree column is
  broadcast along the row, and the changes of float format are the identity on extended reals.
-/
import proofs.«126059_j68281390072361_2_alg».proof.Proof.Gen.KernelIdeal.Skeleton
import proofs.«126059_j68281390072361_2_alg».proof.Proof.LibPlainDot
import proofs.«126059_j68281390072361_2_alg».proof.Proof.LibRowOps
import proofs.«126059_j68281390072361_2_alg».proof.Proof.SageSpec
import Idealize.ShloMosaic.Lib.Pipeline.Value
import Idealize.ShloMosaic.PureOps.Ideal.Laws

noncomputable section

namespace Cert.SageTile

open Idealize.ShloMosaic Idealize.ShloMosaic.ValueIdx Cert.KernelIdeal Cert.KernelIdeal.Gen

/-- The tile product's dimension numbers: the left operand's second axis against the right operand's first. -/
abbrev tileDot := dot_S5000x128_S128x128_S5000x128_1_0_0_1_n_n

/-- The left operand's row is the output's row. -/
theorem tile_lhs_row (j : S5000x128.Idx) (k : tileDot.contr.Idx) : (tileDot.lhsIdx j k 0).val = (j 0).val := by
  unfold DotDims.lhsIdx
  rw [dif_neg (show ¬(0 : Fin S5000x128.rank) ∈ tileDot.lhsBatch by decide),
    dif_pos (show (0 : Fin S5000x128.rank) ∈ tileDot.lhsNonContracting by decide)]
  rfl

/-- The right operand's column is the output's column. -/
theorem tile_rhs_col (j : S5000x128.Idx) (k : tileDot.contr.Idx) : (tileDot.rhsIdx j k 1).val = (j 1).val := by
  unfold DotDims.rhsIdx
  rw [dif_neg (show ¬(1 : Fin S128x128.rank) ∈ tileDot.rhsBatch by decide),
    dif_pos (show (1 : Fin S128x128.rank) ∈ tileDot.rhsNonContracting by decide)]
  rfl

/-- A tile product into the zero accumulator, at entry (p, q), is the sum over k of left(p,k) · right(k,q). -/
theorem tile_product_apply {φ₁ φ₂ : FTy} (lhs : FVec Ideal S5000x128 φ₁) (rhs : FVec Ideal S128x128 φ₂) (p : Fin 5000) (q : Fin 128) :
    matmul tileDot none lhs rhs (constant S5000x128 .f32 0x00000000#32) (ix2 p q)
      = ∑ k : Fin 128, lhs (ix2 p k) * rhs (ix2 k q) :=
  Cert.LibPlainDot.matmul_zero_apply tileDot rfl rfl rfl rfl tile_lhs_row tile_rhs_col none lhs rhs p q

/-- The stored block at row p, column q. -/
theorem stored_apply (cnt : Vec Ideal S5000x1 .f32) (agg x : Vec Ideal S5000x128 .f32) (w1 w2 : Vec Ideal S128x128 .f32)
    (p : Fin 5000) (q : Fin 128) :
    k0_pay1 (F := Ideal) cnt agg x w1 w2 (ix2 p q)
      = (∑ k : Fin 128, x (ix2 p k) * w1 (ix2 k q))
        + ∑ k : Fin 128, Ideal.div (agg (ix2 p k)) (max (cnt (ix2 p (0 : Fin 1))) Cert.Sage.one) * w2 (ix2 k q) := by
  unfold k0_pay1
  show FloatOps.addf _ _ = _
  rw [Ideal.addf_def]
  refine congrArg₂ (· + ·) ?_ ?_
  · refine (tile_product_apply _ _ p q).trans ?_
    simp only [truncf, Ideal.truncf_def, shapeCast_self]
  · refine (tile_product_apply _ _ p q).trans ?_
    refine Finset.sum_congr rfl fun k _ => ?_
    simp only [truncf, Ideal.truncf_def, shapeCast_self, divf, Ideal.divf_def, maximumf, Ideal.maximumf_def, broadcast,
      Cert.LibRowOps.broadcastTo_a1_ab_apply, Scalar.ofBits, Ideal.ofBits_def]

end Cert.SageTile

end
-- ==== Proof.GraphSums.lean ====
/-
  The graph side of the layer, as the host computes it before the tiled product.

  Row 0 of the edge list holds each edge's source node, row 1 its target node.  An index is "wrapped": 50000 is added
  to it where it is negative.  The message of an edge is the source node's feature row, gathered at the wrapped source
  index; the neighbour sum of a node adds up the messages of the edges scattered to it, and its in-degree adds up a one
  per such edge.  Both sums are taken as whole operations of the index column they are scattered by: nothing here
  looks inside the gather or the scatter, only at which index column they are given.
-/
import proofs.«126059_j68281390072361_2_alg».proof.KernelIdeal

noncomputable section

namespace Cert.SageGraph

open Idealize.ShloMosaic Cert.KernelIdeal Cert.KernelIdeal.Facts₀

variable {F : FTy → Type} [FloatOps F] [Cert.KernelIdeal.Facts]

/-- Row 0 of the edge list: the source node of each edge. -/
def sources (ei : IVec S2x800000 32) : IVec S800000 32 :=
  shapeCast S800000 (extractStridedSlice S1x800000 ![0, 0] ei slices_S2x800000_S1x800000_0_0) shapeCasts_S1x800000_S800000

/-- Row 1 of the edge list: the target node of each edge. -/
def targets (ei : IVec S2x800000 32) : IVec S800000 32 :=
  shapeCast S800000 (extractStridedSlice S1x800000 ![1, 0] ei slices_S2x800000_S1x800000_1_0) shapeCasts_S1x800000_S800000

/-- An index with 50000 added where it is negative. -/
def wrapped (d : IVec S800000 32) : IVec S800000 32 :=
  select (cmpi .slt d (broadcastInDim S800000 ![] bcast_S_S800000 (constantI S_ 32 0#32)))
    (addi d (broadcastInDim S800000 ![] bcast_S_S800000 (constantI S_ 32 50000#32))) d

/-- The message of each edge: the feature row of its (wrapped) source node. -/
def messages (x : FVec F S50000x128 .f32) (ei : IVec S2x800000 32) : FVec F S800000x128 .f32 :=
  Host.gather gather_S50000x128_S800000x1_S800000x128_1_0_n_n_0_1_1128 x
    (broadcastInDim S800000x1 ![0] bcast_S800000_S800000x1_0 (wrapped (sources ei)))

/-- The neighbour sums: the messages added up at the rows the index column `d` names, from zero. -/
def neighbourSum (d : IVec S800000 32) (x : FVec F S50000x128 .f32) (ei : IVec S2x800000 32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d) (messages x ei)

/-- The in-degrees: a one per edge added up at the node the index column `d` names, from zero. -/
def inDegree (d : IVec S800000 32) : FVec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 d)
    (broadcastInDim S800000 ![] bcast_S_S800000 (constant S_ .f32 0x3F800000#32))

end Cert.SageGraph

end
-- ==== Proof.EntryArrays.lean ====
/-
  What the tiled product finds in its five operand arrays when it starts: the host operations before it, composed.

  Operand 0 is the feature array as launched; operand 1 the neighbour sums and operand 2 (as a column) the in-degrees,
  both scattered by the WRAPPED target indices; operands 3 and 4 are the upper and the lower 128 rows of the weight.
-/
import proofs.«126059_j68281390072361_2_alg».proof.Proof.Gen.KernelIdeal.Frame
import proofs.«126059_j68281390072361_2_alg».proof.Proof.GraphSums
import Idealize.ShloMosaic.Lib.StableHlo.Run

noncomputable section

namespace Cert.SageEntry

open Cert.KernelIdeal Cert.KernelIdeal.Gen Cert.SageGraph Idealize.ShloMosaic Idealize.ShloMosaic.TcCoe Idealize.SL.Sem
open Idealize.ShloMosaic.StableHlo

variable {F : FTy → Type} [FloatOps F]
variable (m : (ℓ : Loc nD τ sig) → Buf (Elt F) ℓ)

/-- Operand 1: the neighbour sums scattered by the wrapped targets. -/
theorem entry_neighbourSum (c : Dev nD) :
    (V m c main_v18 : S50000x128.Idx → F .f32)
      = neighbourSum (wrapped (targets (m ((c : Thread nD τ).loc main_arg1)))) (m ((c : Thread nD τ).loc main_arg0)) (m ((c : Thread nD τ).loc main_arg1)) := by
  dsimp only [Gen.V, Gen.hostOps0]
  after_results_simp
  rfl

/-- Operand 2: the in-degrees scattered by the wrapped targets, as a column. -/
theorem entry_inDegree (c : Dev nD) :
    (V m c main_v28 : S50000x1.Idx → F .f32)
      = broadcastInDim S50000x1 ![0] Facts₀.bcast_S50000_S50000x1_0 (inDegree (F := F) (wrapped (targets (m ((c : Thread nD τ).loc main_arg1))))) := by
  dsimp only [Gen.V, Gen.hostOps0]
  after_results_simp
  rfl

/-- Operand 3: the upper 128 rows of the weight. -/
theorem entry_upper (c : Dev nD) :
    (V m c main_v29 : S128x128.Idx → F .f32)
      = extractStridedSlice S128x128 ![0, 0] (m ((c : Thread nD τ).loc main_arg2)) Facts₀.slices_S256x128_S128x128_0_0 := by
  dsimp only [Gen.V, Gen.hostOps0]
  after_results_simp

/-- Operand 4: the lower 128 rows of the weight. -/
theorem entry_lower (c : Dev nD) :
    (V m c main_v30 : S128x128.Idx → F .f32)
      = extractStridedSlice S128x128 ![128, 0] (m ((c : Thread nD τ).loc main_arg2)) Facts₀.slices_S256x128_S128x128_128_0 := by
  dsimp only [Gen.V, Gen.hostOps0]
  after_results_simp

end Cert.SageEntry

end
-- ==== Proof.BlockReads.lean ====
/-
  What each operand block of the tiled product holds at a grid point, read off the arrays the product finds.

  Point t of the ten-point grid sits at block row t of the three row-blocked operands (features, neighbour sums,
  in-degree column; 5000 rows each) and at the one whole block of the two weight halves.  So row p of its feature
  block is row 5000·t + p of the features; likewise for the neighbour sums and the in-degrees; and its two weight
  blocks are the upper and the lower 128 rows of the weight.  Stated for any float instance: nothing here computes
  with the floats.
-/
import proofs.«126059_j68281390072361_2_alg».proof.Proof.Gen.KernelIdeal.Frame
import proofs.«126059_j68281390072361_2_alg».proof.Proof.EntryArrays
import Idealize.ShloMosaic.Lib.Pipeline.Value
import Idealize.ShloMosaic.Lib.ValueIdx

noncomputable section

namespace Cert.SageBlocks

open Cert.KernelIdeal Cert.KernelIdeal.Gen Cert.SageGraph Idealize.ShloMosaic Idealize.ShloMosaic.TcCoe Idealize.SL.Sem
open Idealize.ShloMosaic.ValueIdx

/-- The printed index maps over the grid: the row-blocked windows sit at block row t, block column 0; the two weight
    windows at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable {F : FTy → Type} [FloatOps F]
variable (m : (ℓ : Loc nD τ sig) → Buf (Elt F) ℓ)

/-- Row p of point t's feature block is row r = 5000·t + p of the launched features. -/
theorem features_block (c : Dev nD) (t : Fin cfg0.N) (p : Fin 5000) (k : Fin 128) (r : Fin 50000)
    (hr : r.val = t.val * 5000 + p.val) :
    iblk m c 0 t (ix2 p k) = (m ((c : Thread nD τ).loc main_arg0) : S50000x128.Idx → F .f32) (ix2 r k) := by
  obtain ⟨e00, e01, -⟩ := block_indices t
  show V m c main_arg0 (((cfg0.win 0).blk t).view.emb (ix2 p k)) = _
  rw [V_main_arg0]
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Row p of point t's neighbour-sum block is row r = 5000·t + p of the neighbour sums. -/
theorem neighbourSum_block (c : Dev nD) (t : Fin cfg0.N) (p : Fin 5000) (k : Fin 128) (r : Fin 50000)
    (hr : r.val = t.val * 5000 + p.val) :
    iblk m c 1 t (ix2 p k)
      = neighbourSum (F := F) (wrapped (targets (m ((c : Thread nD τ).loc main_arg1)))) (m ((c : Thread nD τ).loc main_arg0))
          (m ((c : Thread nD τ).loc main_arg1)) (ix2 r k) := by
  obtain ⟨-, -, e10, e11, -⟩ := block_indices t
  show (V m c main_v18 : S50000x128.Idx → F .f32) (((cfg0.win 1).blk t).view.emb (ix2 p k)) = _
  rw [Cert.SageEntry.entry_neighbourSum]
  refine congrArg _ (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- Row p of point t's in-degree block is the in-degree of node r = 5000·t + p. -/
theorem inDegree_block (c : Dev nD) (t : Fin cfg0.N) (p : Fin 5000) (r : Fin 50000) (hr : r.val = t.val * 5000 + p.val) :
    iblk m c 2 t (ix2 p (0 : Fin 1))
      = inDegree (F := F) (wrapped (targets (m ((c : Thread nD τ).loc main_arg1)))) (ix1 r) := by
  obtain ⟨-, -, -, -, e20, e21, -⟩ := block_indices t
  show (V m c main_v28 : S50000x1.Idx → F .f32) (((cfg0.win 2).blk t).view.emb (ix2 p (0 : Fin 1))) = _
  rw [Cert.SageEntry.entry_inDegree]
  refine broadcastInDim_apply _ _ _ _ _ (fun a => ?_)
  match a with
  | ⟨0, _⟩ =>
    show r.val = if (50000 : Nat) = 1 then 0 else win0_2.index t (0 : Fin 2) * 5000 + 1 * p.val
    rw [if_neg (by decide)]; omega

/-- Point t's first weight block is the upper 128 rows of the weight. -/
theorem upper_block (c : Dev nD) (t : Fin cfg0.N) (k : Fin 128) (q q' : Fin 128) (hq : q'.val = q.val) :
    iblk m c 3 t (ix2 k q)
      = (m ((c : Thread nD τ).loc main_arg2) : S256x128.Idx → F .f32) (ix2 (⟨k.val, by omega⟩ : Fin 256) q') := by
  obtain ⟨-, -, -, -, -, -, e30, e31, -⟩ := block_indices t
  show (V m c main_v29 : S128x128.Idx → F .f32) (((cfg0.win 3).blk t).view.emb (ix2 k q)) = _
  rw [Cert.SageEntry.entry_upper]
  refine extractStridedSlice_apply _ _ _ _ _ (fun a => ?_)
  match a with
  | ⟨0, _⟩ => show k.val = 0 + (win0_3.index t (0 : Fin 2) * 128 + 1 * k.val); omega
  | ⟨1, _⟩ => show q'.val = 0 + (win0_3.index t (1 : Fin 2) * 128 + 1 * q.val); omega

/-- Point t's second weight block is the lower 128 rows of the weight. -/
theorem lower_block (c : Dev nD) (t : Fin cfg0.N) (k : Fin 128) (q q' : Fin 128) (hq : q'.val = q.val) :
    iblk m c 4 t (ix2 k q)
      = (m ((c : Thread nD τ).loc main_arg2) : S256x128.Idx → F .f32) (ix2 (⟨128 + k.val, by omega⟩ : Fin 256) q') := by
  obtain ⟨-, -, -, -, -, -, -, -, e40, e41, -⟩ := block_indices t
  show (V m c main_v30 : S128x128.Idx → F .f32) (((cfg0.win 4).blk t).view.emb (ix2 k q)) = _
  rw [Cert.SageEntry.entry_lower]
  refine extractStridedSlice_apply _ _ _ _ _ (fun a => ?_)
  match a with
  | ⟨0, _⟩ => show 128 + k.val = 128 + (win0_4.index t (0 : Fin 2) * 128 + 1 * k.val); omega
  | ⟨1, _⟩ => show q'.val = 0 + (win0_4.index t (1 : Fin 2) * 128 + 1 * q.val); omega

end Cert.SageBlocks

end
-- ==== Proof.KernelValue.lean ====
/-
  The kernel's result array, whole.

  The tiled product runs over ten grid points; point t handles rows 5000·t … 5000·t + 4999.  Its blocks of the feature
  array, of the neighbour sums and of the in-degree column are those rows; its two weight blocks are the two whole
  halves of the weight; and the block it writes back is rows 5000·t … 5000·t + 4999 of the result.  So what point t
  writes back is that block of ONE array — the layer's output computed from the neighbour sums and in-degrees that
  were scattered by the wrapped target indices — and the ten blocks cover the array (the point that covers row r is
  r / 5000).
-/
import proofs.«126059_j68281390072361_2_alg».proof.Proof.Gen.KernelIdeal.Value
import proofs.«126059_j68281390072361_2_alg».proof.Proof.TileValue
import proofs.«126059_j68281390072361_2_alg».proof.Proof.BlockReads
import proofs.«126059_j68281390072361_2_alg».proof.Proof.SageSpec
import Idealize.ShloMosaic.Lib.Pipeline.Value
import Idealize.ShloMosaic.Lib.ValueIdx

noncomputable section

namespace Cert.SageKernel

open Cert.KernelIdeal Cert.KernelIdeal.Gen Cert.SageGraph Cert.SageBlocks Idealize.ShloMosaic Idealize.ShloMosaic.TcCoe Idealize.SL.Sem
open Idealize.ShloMosaic.ValueIdx
open Idealize.ShloMosaic.Pipeline (Dat)

/-- One stored entry, from what the five blocks hold: if row p of the feature, neighbour-sum and in-degree blocks is row
    r of the arrays X, A, C, and column q of the two weight blocks is column q' of the upper and of the lower half of
    W, the stored entry (p, q) is the layer's output at (r, q'). -/
theorem stored_entry (cnt : Vec Ideal S5000x1 .f32) (agg x : Vec Ideal S5000x128 .f32) (w1 w2 : Vec Ideal S128x128 .f32)
    (X A : (⟨2, ![50000, 128]⟩ : Shape).Idx → EReal) (C : (⟨1, ![50000]⟩ : Shape).Idx → EReal)
    (W : (⟨2, ![256, 128]⟩ : Shape).Idx → EReal) (p : Fin 5000) (q : Fin 128) (r : Fin 50000) (q' : Fin 128)
    (hx : ∀ k : Fin 128, x (ix2 p k) = X (ix2 r k)) (ha : ∀ k : Fin 128, agg (ix2 p k) = A (ix2 r k))
    (hc : cnt (ix2 p (0 : Fin 1)) = C (ix1 r))
    (h1 : ∀ k : Fin 128, w1 (ix2 k q) = W (ix2 (⟨k.val, by omega⟩ : Fin 256) q'))
    (h2 : ∀ k : Fin 128, w2 (ix2 k q) = W (ix2 (⟨128 + k.val, by omega⟩ : Fin 256) q')) :
    k0_pay1 (F := Ideal) cnt agg x w1 w2 (ix2 p q) = Cert.Sage.entry X A C W r q' := by
  rw [Cert.SageTile.stored_apply]
  unfold Cert.Sage.entry
  simp only [hx, ha, hc, h1, h2]

variable (m : (ℓ : Loc nD τ sig) → Buf (Elt Ideal) ℓ) (ρ : Dev nD → PrngReg)

/-- The kernel's result: the layer's output of the launched features and weight, with the neighbour sums and the
    in-degrees scattered by the WRAPPED target indices. -/
def result (c : Dev nD) : S50000x128.Idx → EReal :=
  Cert.Sage.out (m ((c : Thread nD τ).loc main_arg0))
    (neighbourSum (F := Ideal) (wrapped (targets (m ((c : Thread nD τ).loc main_arg1)))) (m ((c : Thread nD τ).loc main_arg0)) (m ((c : Thread nD τ).loc main_arg1)))
    (inDegree (F := Ideal) (wrapped (targets (m ((c : Thread nD τ).loc main_arg1)))))
    (m ((c : Thread nD τ).loc main_arg2))

theorem zero_offsets : (![0, 0] : Fin 2 → Nat) = fun _ => 0 := funext fun a => by fin_cases a <;> rfl

/-- What point t writes back is block t of the result. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  rw [View.canon_unit_zero zero_offsets]
  simp only [View.ld_unit_zero (S := S5000x128) zero_offsets, View.ld_unit_zero (S := S5000x1) zero_offsets,
    View.ld_unit_zero (S := S128x128) zero_offsets]
  obtain ⟨-, -, -, -, -, -, -, -, -, -, e50, e51⟩ := block_indices t
  funext j
  have hp : (j 0).val < 5000 := (j 0).isLt
  have hq : (j 1).val < 128 := (j 1).isLt
  -- the written-back block's row p is row 5000·t + p of the result, its column q is column q
  have hr : ((((cfg0.win 5).blk t).view.emb j) 0).val = t.val * 5000 + (j 0).val := by
    show win0_5.index t (0 : Fin 2) * 5000 + 1 * (j 0).val = _; omega
  have hc : ((((cfg0.win 5).blk t).view.emb j) 1).val = (j 1).val := by
    show win0_5.index t (1 : Fin 2) * 128 + 1 * (j 1).val = _; omega
  show k0_pay1 (F := Ideal) (iblk m c 2 t) (iblk m c 1 t) (iblk m c 0 t) (iblk m c 3 t) (iblk m c 4 t) j
    = Cert.Sage.entry (m ((c : Thread nD τ).loc main_arg0))
        (neighbourSum (F := Ideal) (wrapped (targets (m ((c : Thread nD τ).loc main_arg1)))) (m ((c : Thread nD τ).loc main_arg0)) (m ((c : Thread nD τ).loc main_arg1)))
        (inDegree (F := Ideal) (wrapped (targets (m ((c : Thread nD τ).loc main_arg1)))))
        (m ((c : Thread nD τ).loc main_arg2))
        ((((cfg0.win 5).blk t).view.emb j) 0) ((((cfg0.win 5).blk t).view.emb j) 1)
  refine (congrArg (k0_pay1 (F := Ideal) (iblk m c 2 t) (iblk m c 1 t) (iblk m c 0 t) (iblk m c 3 t) (iblk m c 4 t)) (eq_ix2 j)).trans ?_
  exact stored_entry (iblk m c 2 t) (iblk m c 1 t) (iblk m c 0 t) (iblk m c 3 t) (iblk m c 4 t)
    (m ((c : Thread nD τ).loc main_arg0))
    (neighbourSum (F := Ideal) (wrapped (targets (m ((c : Thread nD τ).loc main_arg1)))) (m ((c : Thread nD τ).loc main_arg0)) (m ((c : Thread nD τ).loc main_arg1)))
    (inDegree (F := Ideal) (wrapped (targets (m ((c : Thread nD τ).loc main_arg1)))))
    (m ((c : Thread nD τ).loc main_arg2))
    (j 0) (j 1) ((((cfg0.win 5).blk t).view.emb j) 0) ((((cfg0.win 5).blk t).view.emb j) 1)
    (fun k => features_block m c t (j 0) k _ hr)
    (fun k => neighbourSum_block m c t (j 0) k _ hr)
    (inDegree_block m c t (j 0) _ hr)
    (fun k => upper_block m c t k (j 1) _ hc)
    (fun k => lower_block m c t k (j 1) _ hc)

/-- An index of the result array is in point t's block iff each coordinate is in the block's range on its axis. -/
theorem mem_block (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v31).slice (win0_5.rect t)).set ↔ _
  rw [View.set_slice_whole, Rect.mem_set_unit]
  exact Iff.rfl

/-- The ten blocks cover the array: row r is in the block of point r / 5000. -/
theorem covered (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  refine ⟨⟨(i 0).val / 5000, by omega⟩, flush0_5 _, ?_⟩
  obtain ⟨-, -, -, -, -, -, -, -, -, -, e50, e51⟩ := block_indices ⟨(i 0).val / 5000, by omega⟩
  rw [mem_block]
  intro a
  match a with
  | ⟨0, _⟩ =>
    show win0_5.index ⟨(i 0).val / 5000, _⟩ (0 : Fin 2) * 5000 ≤ (i 0).val ∧ (i 0).val < win0_5.index ⟨(i 0).val / 5000, _⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, _⟩ (1 : Fin 2) * 128 ≤ (i 1).val ∧ (i 1).val < win0_5.index ⟨(i 0).val / 5000, _⟩ (1 : Fin 2) * 128 + 128
    rw [e51]; omega

/-- So the result array ends holding `result`. -/
theorem final (c : Dev nD) : (dats m 0 c).arrAt 5 cfg0.N = result m c :=
  (dats m 0 c).arrAt_eq_of_cover 5 (result m c) (fun t _ => flushed_eq m c t) covered

/-- The kernel's run: every fair execution terminates, the result array at `result`, the arguments unchanged. -/
theorem run : θ_run defs (onTc (τ := τ) (main (F := Ideal))) ⟨m, fun _ => 0, ρ⟩ fun r => ∀ c : Dev nD,
      r.2.mem ((c : Thread nD τ).loc main_v31) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.SageKernel

end
-- ==== Proof.ReferenceValue.lean ====
/-
  The reference's result, entry by entry, is the layer's output with the neighbour sums and in-degrees scattered by
  the target indices AS GIVEN.

  The reference multiplies the 50000 × 256 array [x | mean] by the 256 × 128 weight: entry (r, c) is the sum over
  k < 256 of [x | mean](r,k) · W(k,c).  For k < 128 the joined array reads x(r,k); for 128 ≤ k it reads
  mean(r, k − 128) = agg(r, k − 128) / max(cnt(r), 1).  Splitting the sum at 128 gives the two sums of the layer's
  output.
-/
import proofs.«126059_j68281390072361_2_alg».proof.Proof.Gen.ReferenceIdeal.Read
import proofs.«126059_j68281390072361_2_alg».proof.Proof.Gen.KernelIdeal
import proofs.«126059_j68281390072361_2_alg».proof.Proof.GraphSums
import proofs.«126059_j68281390072361_2_alg».proof.Proof.SageSpec
import Idealize.ShloMosaic.Lib.Pipeline.Value
import Idealize.ShloMosaic.Lib.ValueIdx

noncomputable section

namespace Cert.SageReference

open Idealize.ShloMosaic Idealize.ShloMosaic.ValueIdx Cert.ReferenceIdeal Cert.ReferenceIdeal.Read
open Cert.SageGraph (targets neighbourSum inDegree)

/-- The reference's neighbour sums are scattered by the target indices as given. -/
theorem ref_neighbourSum (x : (⟨S50000x128, .f32⟩ : BufTy).Contents (Elt Ideal)) (ei : (⟨S2x800000, .i32⟩ : BufTy).Contents (Elt Ideal)) :
    val_main_v13 (F := Ideal) x ei = neighbourSum (F := Ideal) (targets ei) x ei := rfl

/-- The reference's in-degrees are scattered by the target indices as given. -/
theorem ref_inDegree (ei : (⟨S2x800000, .i32⟩ : BufTy).Contents (Elt Ideal)) :
    val_main_v17 (F := Ideal) ei = inDegree (F := Ideal) (targets ei) := rfl

/-- The mean of the neighbours' features at (r, k): the neighbour sum over the in-degree, the in-degree at least one. -/
theorem mean_apply (x : (⟨S50000x128, .f32⟩ : BufTy).Contents (Elt Ideal)) (ei : (⟨S2x800000, .i32⟩ : BufTy).Contents (Elt Ideal))
    (r : Fin 50000) (k : Fin 128) :
    val_main_v22 (F := Ideal) x ei (ix2 r k)
      = Ideal.div (neighbourSum (F := Ideal) (targets ei) x ei (ix2 r k)) (max (inDegree (F := Ideal) (targets ei) (ix1 r)) Cert.Sage.one) := by
  have hrow : idx_main_v20 (idx_main_v21 (ix2 r k)) = ix1 r := funext fun a => match a with | ⟨0, _⟩ => rfl
  rw [val_main_v22_apply, val_main_v21_apply, val_main_v20_apply, val_main_v19_apply, val_main_v18_apply, val_main_cst_3_apply,
    ref_neighbourSum, ref_inDegree, hrow, Ideal.hostDivf_def, Ideal.maximumf_def, Ideal.ofBits_def]

/-- The joined array [x | mean] at a column below 128 reads x. -/
theorem joined_left (x : (⟨S50000x128, .f32⟩ : BufTy).Contents (Elt Ideal)) (ei : (⟨S2x800000, .i32⟩ : BufTy).Contents (Elt Ideal))
    (r : Fin 50000) (c : Fin 128) (k : Fin 128) :
    val_main_v23 (F := Ideal) x ei (lidx_main_v24 (ix2 r c) (⟨k.val, by omega⟩ : Fin 256)) = x (ix2 r k) := by
  unfold val_main_v23
  refine concatenate_pair_apply_left (t := S50000x256) (s₁ := S50000x128) (s₂ := S50000x128) 1 x (val_main_v22 (F := Ideal) x ei) _ _ rfl (ix2 r k) (fun b => ?_)
  match b with
  | ⟨0, _⟩ => rfl
  | ⟨1, _⟩ => rfl

/-- The joined array at column 128 + k reads the mean at column k. -/
theorem joined_right (x : (⟨S50000x128, .f32⟩ : BufTy).Contents (Elt Ideal)) (ei : (⟨S2x800000, .i32⟩ : BufTy).Contents (Elt Ideal))
    (r : Fin 50000) (c : Fin 128) (k : Fin 128) :
    val_main_v23 (F := Ideal) x ei (lidx_main_v24 (ix2 r c) (⟨128 + k.val, by omega⟩ : Fin 256)) = val_main_v22 (F := Ideal) x ei (ix2 r k) := by
  unfold val_main_v23
  refine concatenate_pair_apply_right (t := S50000x256) (s₁ := S50000x128) (s₂ := S50000x128) 1 x (val_main_v22 (F := Ideal) x ei) _ _ rfl rfl (ix2 r k) (fun b hb => ?_) ?_
  · match b with
    | ⟨0, _⟩ => rfl
    | ⟨1, _⟩ => exact absurd rfl hb
  · show k.val + 128 = 128 + k.val
    omega

/-- The weight's index at contraction coordinate k is (k, c). -/
theorem weight_index (r : Fin 50000) (c : Fin 128) (k : Fin 256) : ridx_main_v24 (ix2 r c) k = ix2 k c := by
  funext a
  match a with
  | ⟨0, _⟩ => rfl
  | ⟨1, _⟩ => rfl

/-- The reference's result is the layer's output with the graph sums scattered by the targets as given. -/
theorem reference_eq (x : (⟨S50000x128, .f32⟩ : BufTy).Contents (Elt Ideal)) (ei : (⟨S2x800000, .i32⟩ : BufTy).Contents (Elt Ideal))
    (W : (⟨S256x128, .f32⟩ : BufTy).Contents (Elt Ideal)) :
    val_main_v24 (F := Ideal) x ei W
      = Cert.Sage.out x (neighbourSum (F := Ideal) (targets ei) x ei) (inDegree (F := Ideal) (targets ei)) W := by
  funext i
  obtain ⟨r, c, rfl⟩ : ∃ (r : Fin 50000) (c : Fin 128), i = ix2 r c := ⟨i 0, i 1, eq_ix2 i⟩
  rw [val_main_v24_apply, Cert.Sage.sum_two_halves]
  show _ = Cert.Sage.entry x (neighbourSum (F := Ideal) (targets ei) x ei) (inDegree (F := Ideal) (targets ei)) W r c
  unfold Cert.Sage.entry
  refine congrArg₂ (· + ·) (Finset.sum_congr rfl fun k _ => ?_) (Finset.sum_congr rfl fun k _ => ?_)
  · rw [joined_left, weight_index]
  · rw [joined_right, mean_apply, weight_index]

end Cert.SageReference

end
-- ==== Proof.lean ====
/-
  A GraphSAGE layer without bias: out = [x | mean] · W, where mean(r,·) is the sum of the feature rows of the edges
  arriving at node r, divided by max(in-degree(r), 1).

  The kernel gathers the messages and scatter-adds the neighbour sums and the in-degrees on the host, then computes
  x · W[0:128] + (agg / max(cnt, 1)) · W[128:256] in row tiles of 5000; the reference scatters the same sums, divides,
  joins [x | mean] and multiplies by the whole W.  At the ideal instance both are the same function of the arguments
  entry by entry (a sum over 256 contraction indices split at 128; no finiteness is used) — PROVIDED the two programs
  scatter by the same index column: the kernel wraps a negative target index by adding 50000, the reference uses the
  target index as given.  The precondition says every target index is non-negative, and on such indices the wrap is
  the identity.

  The three frames are the generated ones (the reference's is its generated run with the result dropped); the
  idealization rewrote nothing, so its preservation claim is trivial.
-/
import proofs.«126059_j68281390072361_2_alg».proof.Defs
import proofs.«126059_j68281390072361_2_alg».proof.Proof.Gen.Kernel
import proofs.«126059_j68281390072361_2_alg».proof.Proof.Gen.Kernel.Skeleton
import proofs.«126059_j68281390072361_2_alg».proof.Proof.Gen.Kernel.Launch
import proofs.«126059_j68281390072361_2_alg».proof.Proof.Gen.Kernel.Points
import proofs.«126059_j68281390072361_2_alg».proof.Proof.Gen.Kernel.Frame
import proofs.«126059_j68281390072361_2_alg».proof.Proof.Gen.KernelIdeal
import proofs.«126059_j68281390072361_2_alg».proof.Proof.Gen.KernelIdeal.Skeleton
import proofs.«126059_j68281390072361_2_alg».proof.Proof.Gen.KernelIdeal.Launch
import proofs.«126059_j68281390072361_2_alg».proof.Proof.Gen.KernelIdeal.Points
import proofs.«126059_j68281390072361_2_alg».proof.Proof.Gen.KernelIdeal.Frame
import proofs.«126059_j68281390072361_2_alg».proof.Proof.Gen.ReferenceIdeal
import proofs.«126059_j68281390072361_2_alg».proof.Proof.Gen.Pre_finite_inputs
import proofs.«126059_j68281390072361_2_alg».proof.Proof.Gen.KernelIdeal.Value
import proofs.«126059_j68281390072361_2_alg».proof.Proof.Gen.ReferenceIdeal.Run
import proofs.«126059_j68281390072361_2_alg».proof.Proof.Gen.ReferenceIdeal.Read
import proofs.«126059_j68281390072361_2_alg».proof.Proof.TargetsNonneg
import proofs.«126059_j68281390072361_2_alg».proof.Proof.KernelValue
import proofs.«126059_j68281390072361_2_alg».proof.Proof.ReferenceValue
import Idealize.ShloMosaic.Adequacy
import Idealize.ShloMosaic.Init

noncomputable section

namespace Cert.Proof

open Idealize.ShloMosaic Idealize.ShloMosaic.TcCoe Idealize.SL.Sem
open Cert.SageGraph (targets wrapped)

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Under the precondition every target index is non-negative, so wrapping the targets changes nothing. -/
theorem wrapped_targets (m : (ℓ : Loc Cert.KernelIdeal.nD Cert.KernelIdeal.τ Cert.KernelIdeal.sig) → Buf (Elt Ideal) ℓ)
    (hpre : Cert.Pre_KernelIdeal m) (c : Dev Cert.KernelIdeal.nD) :
    wrapped (targets (m ((c : Thread Cert.KernelIdeal.nD Cert.KernelIdeal.τ).loc Cert.KernelIdeal.main_arg1)))
      = targets (m ((c : Thread Cert.KernelIdeal.nD Cert.KernelIdeal.τ).loc Cert.KernelIdeal.main_arg1)) := by
  unfold wrapped
  exact Cert.Targets.select_slt_eq_self _ _ _ (fun e => Cert.Targets.targets_nonneg _ _ _ (hpre c) e)

/-- Both runs end with the layer's output of the same arguments: the kernel's with the graph sums scattered by the
    wrapped targets, the reference's by the targets as given, and under the precondition these are one index column. -/
theorem algebraic : Cert.algebraic_KernelIdeal_ReferenceIdeal := by
  intro m ρ m' ρ' hpre hagree
  refine ⟨fun c => Cert.SageKernel.result m c, Cert.SageKernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v24_eq (F := Ideal) _ _ _).trans ?_
  show _ = Cert.SageKernel.result m c
  rw [Cert.SageReference.reference_eq, (hagree c).1, (hagree c).2.1, (hagree c).2.2]
  unfold Cert.SageKernel.result
  rw [wrapped_targets m hpre c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
